-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1x16384x1024 : Shape := ⟨3, ![1, 16384, 1024]⟩
abbrev S3072x512 : Shape := ⟨2, ![3072, 512]⟩
abbrev S3072x1024 : Shape := ⟨2, ![3072, 1024]⟩
abbrev S3072 : Shape := ⟨1, ![3072]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x16384x1024 : S_.BroadcastsInDim S1x16384x1024 (![] : Fin 0 → Fin S1x16384x1024.rank)
  reducesTo_S1x16384x1024_S_d0_1_2 : S1x16384x1024.ReducesTo [0, 1, 2] S_
  bcast_S_S3072x512 : S_.BroadcastsInDim S3072x512 (![] : Fin 0 → Fin S3072x512.rank)
  reducesTo_S3072x512_S_d0_1 : S3072x512.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S3072 .f32) (main_arg5 : FVec F S3072 .f32) (main_arg6 : FVec F S512x1024 .f32) (main_arg7 : FVec F S512 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S1x16384x1024 .f32) (main_arg2 : FVec F S3072x512 .f32) (main_arg3 : FVec F S3072x1024 .f32) (main_arg4 : FVec F S3072 .f32) (main_arg5 : FVec F S3072 .f32) (main_arg6 : FVec F S512x1024 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S3072x512 .f32 := Host.absf main_arg2
  let main_cst_2 : FVec F S_ .f32 := constant S_ .f32 0x7F800000#32
  let main_v10 : FVec F S3072x512 .f32 := broadcastInDim S3072x512 ![] bcast_S_S3072x512 main_cst_2
  let main_v11 : IVec S3072x512 1 := cmpf .olt main_v9 main_v10
  let main_c_3 : IVec S_ 1 := constantI S_ 1 1#1
  let main_v12 : IVec S_ 1 := (fun x v => Host.reduce IntOp.andi x v reducesTo_S3072x512_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_arg7 main_v13 main_v16
-- ==== Kernel.lean ====
abbrev S16384x512 : Shape := ⟨2, ![16384, 512]⟩
abbrev S1x16384x1024 : Shape := ⟨3, ![1, 16384, 1024]⟩
abbrev S3072x512 : Shape := ⟨2, ![3072, 512]⟩
abbrev S3072x1024 : Shape := ⟨2, ![3072, 1024]⟩
abbrev S3072 : Shape := ⟨1, ![3072]⟩
abbrev S512x1024 : Shape := ⟨2, ![512, 1024]⟩
abbrev S512 : Shape := ⟨1, ![512]⟩
abbrev S512x3072 : Shape := ⟨2, ![512, 3072]⟩
abbrev S1024x3072 : Shape := ⟨2, ![1024, 3072]⟩
abbrev S1024x512 : Shape := ⟨2, ![1024, 512]⟩
abbrev S1x3072 : Shape := ⟨2, ![1, 3072]⟩
abbrev S1x512 : Shape := ⟨2, ![1, 512]⟩
abbrev S512x512 : Shape := ⟨2, ![512, 512]⟩
abbrev S1x512x1024 : Shape := ⟨3, ![1, 512, 1024]⟩

abbrev nBuf : Space → Nat
  | .hbm => 19
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S1x16384x1024, .f32⟩
  | .hbm, ⟨2, _⟩ => ⟨S3072x512, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S512x1024, .f32⟩
  | .hbm, ⟨7, _⟩ => ⟨S512, .f32⟩
  | .hbm, ⟨8, _⟩ => ⟨S512x3072, .f32⟩
  | .hbm, ⟨9, _⟩ => ⟨S512x3072, .bf16⟩
  | .hbm, ⟨10, _⟩ => ⟨S1024x3072, .f32⟩
  | .hbm, ⟨11, _⟩ => ⟨S1024x3072, .bf16⟩
  | .hbm, ⟨12, _⟩ => ⟨S1024x512, .f32⟩
  | .hbm, ⟨13, _⟩ => ⟨S1024x512, .bf16⟩
  | .hbm, ⟨14, _⟩ => ⟨S1x3072, .f32⟩
  | .hbm, ⟨15, _⟩ => ⟨S1x3072, .f32⟩
  | .hbm, ⟨16, _⟩ => ⟨S1x512, .f32⟩
  | .hbm, ⟨17, _⟩ => ⟨S16384x512, .f32⟩
  | .hbm, ⟨18, _⟩ => ⟨S1x16384x1024, .f32⟩
  | .local _ .vmem, ⟨0, _⟩ => ⟨S512x512, .f32⟩
  | .local _ .vmem, ⟨1, _⟩ => ⟨S512x512, .f32⟩
  | .local _ .vmem, ⟨2, _⟩ => ⟨S1x512x1024, .f32⟩
  | .local _ .vmem, ⟨3, _⟩ => ⟨S1x512x1024, .f32⟩
  | .local _ .vmem, ⟨4, _⟩ => ⟨S512x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S1024x512, .bf16⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S1x512x1024, .f32⟩
  | .local _ .vmem, ⟨13, _⟩ => ⟨S1x512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S3072x512_S512x3072_1_0 : S3072x512.Transposes [1, 0] S512x3072
  bitsLt_bf16_f32 : FTy.bits .bf16 < FTy.bits .f32
  transposes_S3072x1024_S1024x3072_1_0 : S3072x1024.Transposes [1, 0] S1024x3072
  transposes_S512x1024_S1024x512_1_0 : S512x1024.Transposes [1, 0] S1024x512
  shapeCasts_S3072_S1x3072 : S3072.ShapeCasts S1x3072
  shapeCasts_S512_S1x512 : S512.ShapeCasts S1x512
  inb_S512x512_S512x512_0_0 : ∀ a, (![0, 0] : Fin 2 → Nat) a + S512x512.size a ≤ S512x512.size a
  h_S512x512 : 0 < S512x512.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  broadcasts_S1x512_S512x512 : S1x512.Broadcasts S512x512
  shapeCasts_S512x1024_S1x512x1024 : S512x1024.ShapeCasts S1x512x1024
  dot_S512x512_S512x3072_S512x3072_1_0_0_1_n_n_wf : DotDims.WF S512x512 S512x3072 S512x3072 [1] [0] [0] [1] [] []
  dot_S512x1024_S1024x3072_S512x3072_1_0_0_1_n_n_wf : DotDims.WF S512x1024 S1024x3072 S512x3072 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S1x16384x1024.size a
  hwx0_1 : ∀ i : grid0.Coords, EltTy.bits .f32 = 32 ∨ (Rect.block (s := S1x16384x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S512x3072.size a
  hwx0_2 : ∀ i : grid0.Coords, EltTy.bits .bf16 = 32 ∨ (Rect.block (s := S512x3072) S512x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S1x16384x1024.size a
  hwx0_9 : ∀ i : grid0.Coords, EltTy.bits .f32 = 32 ∨ (Rect.block (s := S1x16384x1024) S1x512x1024.size (cc0_transform_9 i) (hinb0_9 i)).WholeWords (EltTy.packing .f32)

variable [Facts₀]

def dot_S512x512_S512x3072_S512x3072_1_0_0_1_n_n : DotDims S512x512 S512x3072 S512x3072 where
  lhsContracting := [1]
  rhsContracting := [0]
  lhsNonContracting := [0]
  rhsNonContracting := [1]
  lhsBatch := []
  rhsBatch := []
  wf := dot_S512x512_S512x3072_S512x3072_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S1x16384x1024 : Shape := ⟨3, ![1, 16384, 1024]⟩
abbrev S3072x512 : Shape := ⟨2, ![3072, 512]⟩
abbrev S3072x1024 : Shape := ⟨2, ![3072, 1024]⟩
abbrev S3072 : Shape := ⟨1, ![3072]⟩
abbrev S512x1024 : Shape := ⟨2, ![512, 1024]⟩
abbrev S512 : Shape := ⟨1, ![512]⟩
abbrev S16384x1024 : Shape := ⟨2, ![16384, 1024]⟩
abbrev S512x3072 : Shape := ⟨2, ![512, 3072]⟩
abbrev S16384x3072 : Shape := ⟨2, ![16384, 3072]⟩
abbrev S1x3072 : Shape := ⟨2, ![1, 3072]⟩
abbrev S1024x3072 : Shape := ⟨2, ![1024, 3072]⟩
abbrev S_ : Shape := ⟨0, ![]⟩
abbrev S1024x512 : Shape := ⟨2, ![1024, 512]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1x16384x1024, .f32⟩
  | .hbm, ⟨2, _⟩ => ⟨S3072x512, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S512x1024, .f32⟩
  | .hbm, ⟨7, _⟩ => ⟨S512, .f32⟩
  | .hbm, ⟨8, _⟩ => ⟨S16384x1024, .f32⟩
  | .hbm, ⟨9, _⟩ => ⟨S512x3072, .f32⟩
  | .hbm, ⟨10, _⟩ => ⟨S16384x3072, .f32⟩
  | .hbm, ⟨11, _⟩ => ⟨S1x3072, .f32⟩
  | .hbm, ⟨12, _⟩ => ⟨S16384x3072, .f32⟩
  | .hbm, ⟨13, _⟩ => ⟨S16384x3072, .f32⟩
  | .hbm, ⟨14, _⟩ => ⟨S1024x3072, .f32⟩
  | .hbm, ⟨15, _⟩ => ⟨S16384x3072, .f32⟩
  | .hbm, ⟨16, _⟩ => ⟨S1x3072, .f32⟩
  | .hbm, ⟨17, _⟩ => ⟨S16384x3072, .f32⟩
  | .hbm, ⟨18, _⟩ => ⟨S16384x3072, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1024x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S1x16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  shapeCasts_S1x16384x1024_S16384x1024 : S1x16384x1024.ShapeCasts S16384x1024
  transposes_S3072x512_S512x3072_1_0 : S3072x512.Transposes [1, 0] S512x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16384x1024_S1x16384x1024_1_2 : S16384x1024.BroadcastsInDim S1x16384x1024 (![1, 2] : Fin 2 → Fin S1x16384x1024.rank)
  dot_S16384x512_S512x3072_S16384x3072_1_0_0_1_n_n_wf : DotDims.WF S16384x512 S512x3072 S16384x3072 [1] [0] [0] [1] [] []
  dot_S16384x1024_S1024x3072_S16384x3072_1_0_0_1_n_n_wf : DotDims.WF S16384x1024 S1024x3072 S16384x3072 [1] [0] [0] [1] [] []
  dot_S16384x1024_S1024x512_S16384x512_1_0_0_1_n_n_wf : DotDims.WF S16384x1024 S1024x512 S16384x512 [1] [0] [0] [1] [] []

variable [Facts₀]

def dot_S16384x512_S512x3072_S16384x3072_1_0_0_1_n_n : DotDims S16384x512 S512x3072 S16384x3072 where
  lhsContracting := [1]
  rhsContracting := [0]
  lhsNonContracting := [0]
  rhsNonContracting := [1]
  lhsBatch := []
  rhsBatch := []
  wf := dot_S16384x512_S512x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Spec.lean ====
/-
  One step of a gated recurrent cell followed by a linear layer and a hyperbolic tangent, as functions of the
  eight argument arrays, entry by entry, over the extended reals.

  For a batch row `p`, with input row `x = X p` (512 entries) and state row `h = Hd 0 p` (1024 entries):
    gi p j = (∑ k, x k · Wih j k) + Bih j                     j < 3072
    gh p j = (∑ k, h k · Whh j k) + Bhh j                     j < 3072
  The 3072 columns are three groups of 1024: reset (columns q), update (columns 1024 + q), candidate
  (columns 2048 + q). With σ the logistic function,
    r = σ (gi p q + gh p q)
    z = σ (gi p (1024+q) + gh p (1024+q))
    n = tanh (gi p (2048+q) + r · gh p (2048+q))
    hnew p q = (1 − z) · n + z · h q
    out p o  = tanh ((∑ q, hnew p q · Wout o q) + Bout o)      o < 512
  The constant one is kept as the f32 word both programs print; σ is the logistic function of the
  extended reals, with its values at the two infinities.
-/
import Idealize.ShloMosaic.PureOps.Ideal
import Idealize.ShloMosaic.PureOps.Ideal.Laws
import Idealize.ShloMosaic.Lib.ValueIdx
import Idealize.ShloMosaic.Lib.IdealHost

noncomputable section

namespace Cert.GruSpec

open Idealize.ShloMosaic Idealize.ShloMosaic.ValueIdx

/-- Column `q` of the reset group. -/
abbrev colR (q : Fin 1024) : Fin 3072 := ⟨q.val, by have := q.isLt; omega⟩
/-- Column `q` of the update group. -/
abbrev colZ (q : Fin 1024) : Fin 3072 := ⟨q.val + 1024, by have := q.isLt; omega⟩
/-- Column `q` of the candidate group. -/
abbrev colN (q : Fin 1024) : Fin 3072 := ⟨q.val + 2048, by have := q.isLt; omega⟩

/-- The f32 word for one, as an extended real. -/
abbrev one : EReal := Ideal.ofBits .f32 0x3F800000#32

section
variable (X : (⟨2, ![16384, 512]⟩ : Shape).Idx → EReal) (Hd : (⟨3, ![1, 16384, 1024]⟩ : Shape).Idx → EReal)
  (Wih : (⟨2, ![3072, 512]⟩ : Shape).Idx → EReal) (Whh : (⟨2, ![3072, 1024]⟩ : Shape).Idx → EReal)
  (Bih Bhh : (⟨1, ![3072]⟩ : Shape).Idx → EReal)
  (Wout : (⟨2, ![512, 1024]⟩ : Shape).Idx → EReal) (Bout : (⟨1, ![512]⟩ : Shape).Idx → EReal)

/-- The input's pre-activations: row `p` of `X` against row `j` of `Wih`, plus the bias. -/
def gi (p : Fin 16384) (j : Fin 3072) : EReal := (∑ k : Fin 512, X (ix2 p k) * Wih (ix2 j k)) + Bih (ix1 j)

/-- The state's pre-activations: row `p` of the state against row `j` of `Whh`, plus the bias. -/
def gh (p : Fin 16384) (j : Fin 3072) : EReal := (∑ k : Fin 1024, Hd (ix3 0 p k) * Whh (ix2 j k)) + Bhh (ix1 j)

/-- The gate arithmetic on the six pre-activations of one entry and the old state's entry. -/
def cell (ir hr iz hz inn hn h : EReal) : EReal :=
  (one - Ideal.logistic (iz + hz)) * Ideal.tanh (inn + Ideal.logistic (ir + hr) * hn) + Ideal.logistic (iz + hz) * h

/-- The new state at row `p`, column `q`. -/
def hnew (p : Fin 16384) (q : Fin 1024) : EReal :=
  cell (gi X Wih Bih p (colR q)) (gh Hd Whh Bhh p (colR q)) (gi X Wih Bih p (colZ q)) (gh Hd Whh Bhh p (colZ q))
    (gi X Wih Bih p (colN q)) (gh Hd Whh Bhh p (colN q)) (Hd (ix3 0 p q))

/-- The output at row `p`, column `o`. -/
def out (p : Fin 16384) (o : Fin 512) : EReal :=
  Ideal.tanh ((∑ q : Fin 1024, hnew X Hd Wih Whh Bih Bhh p q * Wout (ix2 o q)) + Bout (ix1 o))

/-- The new state as an array of shape [1, 16384, 1024]. -/
def hnewArr : (⟨3, ![1, 16384, 1024]⟩ : Shape).Idx → EReal := fun i => hnew X Hd Wih Whh Bih Bhh (i 1) (i 2)

/-- The output as an array of shape [16384, 512]. -/
def outArr : (⟨2, ![16384, 512]⟩ : Shape).Idx → EReal := fun i => out X Hd Wih Whh Bih Bhh Wout Bout (i 0) (i 1)
end

/-- The logistic function spelt as a quotient, `1 / (1 + e^(−x))` with the f32 word for one: the same function
    on every extended real, the infinities included. -/
theorem logistic_quotient (x : EReal) :
    Ideal.div one (one + Ideal.exp (-x)) = Ideal.logistic x := by
  show Ideal.div (Ideal.ofBits .f32 0x3F800000#32) (Ideal.ofBits .f32 0x3F800000#32 + Ideal.exp (-x)) = _
  rw [Ideal.ofBits_one_f32]
  rfl

end Cert.GruSpec

end
-- ==== Proof.RefSpec.lean ====
/-
  The reference program computes the cell of the specification.

  Its operations are read one at a time at explicit coordinates: the two affine maps (a contraction against a
  transposed weight matrix plus a broadcast bias row) give `gi` and `gh`; the three column groups are slices at
  column offsets 0, 1024 and 2048; the logistic function appears spelt out as `1 / (1 + e^(−x))`, which is the
  logistic function on every extended real; the state is the [1, 16384, 1024] argument recast as a matrix; the
  second result is the new state with a leading unit axis put back.
-/
import proofs.«113060_j3066606649895_2_alg».proof.Proof.Gen.ReferenceIdeal.Read
import proofs.«113060_j3066606649895_2_alg».proof.Proof.Spec

noncomputable section

namespace Cert.ReferenceIdeal.RefSpec

open Cert.ReferenceIdeal Cert.ReferenceIdeal.Read Idealize.ShloMosaic Idealize.ShloMosaic.ValueIdx Cert.GruSpec

variable (x0 : (⟨S16384x512, .f32⟩ : BufTy).Contents (Elt Ideal)) (x1 : (⟨S1x16384x1024, .f32⟩ : BufTy).Contents (Elt Ideal))
  (x2 : (⟨S3072x512, .f32⟩ : BufTy).Contents (Elt Ideal)) (x3 : (⟨S3072x1024, .f32⟩ : BufTy).Contents (Elt Ideal))
  (x4 x5 : (⟨S3072, .f32⟩ : BufTy).Contents (Elt Ideal)) (x6 : (⟨S512x1024, .f32⟩ : BufTy).Contents (Elt Ideal))
  (x7 : (⟨S512, .f32⟩ : BufTy).Contents (Elt Ideal))

/-- The input's affine map at row `p`, column `j`. -/
theorem gi_at (p : Fin 16384) (j : Fin 3072) :
    val_main_v5 (F := Ideal) x0 x2 x4 (ix2 p j) = gi x0 x2 x4 p j := by
  rw [val_main_v5_apply, val_main_v2_apply, val_main_v4_apply, val_main_v3_apply]
  have e1 : ∀ k : Fin 512, lidx_main_v2 (ix2 p j) k = ix2 p k := fun k =>
    funext fun a => Fin.ext (by match a with | ⟨0, _⟩ => rfl | ⟨1, _⟩ => rfl)
  have e2 : ∀ k : Fin 512, idx_main_v1 (ridx_main_v2 (ix2 p j) k) = ix2 j k := fun k =>
    funext fun a => Fin.ext (by match a with | ⟨0, _⟩ => rfl | ⟨1, _⟩ => rfl)
  have e3 : idx_main_v3 (idx_main_v4 (ix2 p j)) = ix1 j :=
    funext fun a => Fin.ext (by match a with | ⟨0, _⟩ => rfl)
  simp only [val_main_v1_apply, e1, e2, e3]
  rfl

/-- The state's affine map at row `p`, column `j`: the state's row is row `p` of the argument's one slab. -/
theorem gh_at (p : Fin 16384) (j : Fin 3072) :
    val_main_v10 (F := Ideal) x1 x3 x5 (ix2 p j) = gh x1 x3 x5 p j := by
  rw [val_main_v10_apply, val_main_v7_apply, val_main_v9_apply, val_main_v8_apply]
  have e1 : ∀ k : Fin 1024, idx_main_v0 (lidx_main_v7 (ix2 p j) k) = ix3 0 p k := fun k =>
    funext fun a => Fin.ext (by
      have hp := p.isLt; have hk := k.isLt
      match a with
      | ⟨0, _⟩ => rfl
      | ⟨1, _⟩ => show (p.val * 1024 + k.val) / 1024 % 16384 = p.val; omega
      | ⟨2, _⟩ => show (p.val * 1024 + k.val) % 1024 = k.val; omega)
  have e2 : ∀ k : Fin 1024, idx_main_v6 (ridx_main_v7 (ix2 p j) k) = ix2 j k := fun k =>
    funext fun a => Fin.ext (by match a with | ⟨0, _⟩ => rfl | ⟨1, _⟩ => rfl)
  have e3 : idx_main_v8 (idx_main_v9 (ix2 p j)) = ix1 j :=
    funext fun a => Fin.ext (by match a with | ⟨0, _⟩ => rfl)
  simp only [val_main_v0_apply, val_main_v6_apply, e1, e2, e3]
  rfl

/-- The host's quotient form of the logistic function, in the operations the program prints. -/
theorem host_sigmoid (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x :=
  logistic_quotient x

/-- The new state at row `p`, column `q`. -/
theorem hnew_at (p : Fin 16384) (q : Fin 1024) :
    val_main_v38 (F := Ideal) x0 x1 x2 x3 x4 x5 (ix2 p q) = hnew x0 x1 x2 x3 x4 x5 p q := by
  have eR : idx_main_v11 (ix2 p q) = ix2 p (colR q) :=
    funext fun a => Fin.ext (by match a with | ⟨0, _⟩ => rfl | ⟨1, _⟩ => rfl)
  have eZ : idx_main_v12 (ix2 p q) = ix2 p (colZ q) :=
    funext fun a => Fin.ext (by match a with | ⟨0, _⟩ => rfl | ⟨1, _⟩ => show 1024 + q.val = q.val + 1024; omega)
  have eN : idx_main_v13 (ix2 p q) = ix2 p (colN q) :=
    funext fun a => Fin.ext (by match a with | ⟨0, _⟩ => rfl | ⟨1, _⟩ => show 2048 + q.val = q.val + 2048; omega)
  have eR' : idx_main_v14 (ix2 p q) = ix2 p (colR q) :=
    funext fun a => Fin.ext (by match a with | ⟨0, _⟩ => rfl | ⟨1, _⟩ => rfl)
  have eZ' : idx_main_v15 (ix2 p q) = ix2 p (colZ q) :=
    funext fun a => Fin.ext (by match a with | ⟨0, _⟩ => rfl | ⟨1, _⟩ => show 1024 + q.val = q.val + 1024; omega)
  have eN' : idx_main_v16 (ix2 p q) = ix2 p (colN q) :=
    funext fun a => Fin.ext (by match a with | ⟨0, _⟩ => rfl | ⟨1, _⟩ => show 2048 + q.val = q.val + 2048; omega)
  have eH : idx_main_v0 (ix2 p q) = ix3 0 p q :=
    funext fun a => Fin.ext (by
      have hp := p.isLt; have hq := q.isLt
      match a with
      | ⟨0, _⟩ => rfl
      | ⟨1, _⟩ => show (p.val * 1024 + q.val) / 1024 % 16384 = p.val; omega
      | ⟨2, _⟩ => show (p.val * 1024 + q.val) % 1024 = q.val; omega)
  simp only [val_main_v38_apply, val_main_v36_apply, val_main_v37_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v0_apply,
    val_main_cst_apply, val_main_cst_0_apply, val_main_cst_1_apply, val_main_cst_2_apply, val_main_cst_3_apply,
    eR, eZ, eN, eR', eZ', eN', eH, gi_at, gh_at, host_sigmoid]
  rfl

/-- The second result: the new state under a leading unit axis. -/
theorem hidden_at (z : Fin 1) (p : Fin 16384) (q : Fin 1024) :
    val_main_v45 (F := Ideal) x0 x1 x2 x3 x4 x5 (ix3 z p q) = hnew x0 x1 x2 x3 x4 x5 p q := by
  rw [val_main_v45_apply]
  have e : idx_main_v45 (ix3 z p q) = ix2 p q :=
    funext fun a => Fin.ext (by match a with | ⟨0, _⟩ => rfl | ⟨1, _⟩ => rfl)
  rw [e, hnew_at]

/-- The first result at row `p`, column `o`. -/
theorem out_at (p : Fin 16384) (o : Fin 512) :
    val_main_v44 (F := Ideal) x0 x1 x2 x3 x4 x5 x6 x7 (ix2 p o) = out x0 x1 x2 x3 x4 x5 x6 x7 p o := by
  rw [val_main_v44_apply, val_main_v43_apply, val_main_v40_apply, val_main_v42_apply, val_main_v41_apply]
  have e1 : ∀ k : Fin 1024, lidx_main_v40 (ix2 p o) k = ix2 p k := fun k =>
    funext fun a => Fin.ext (by match a with | ⟨0, _⟩ => rfl | ⟨1, _⟩ => rfl)
  have e2 : ∀ k : Fin 1024, idx_main_v39 (ridx_main_v40 (ix2 p o) k) = ix2 o k := fun k =>
    funext fun a => Fin.ext (by match a with | ⟨0, _⟩ => rfl | ⟨1, _⟩ => rfl)
  have e3 : idx_main_v41 (idx_main_v42 (ix2 p o)) = ix1 o :=
    funext fun a => Fin.ext (by match a with | ⟨0, _⟩ => rfl)
  simp only [val_main_v39_apply, e1, e2, e3, hnew_at]
  rfl

/-- The reference's first result is the specification's output array. -/
theorem out_eq : val_main_v44 (F := Ideal) x0 x1 x2 x3 x4 x5 x6 x7 = outArr x0 x1 x2 x3 x4 x5 x6 x7 := by
  funext i
  obtain ⟨p, o, rfl⟩ : ∃ (p : Fin 16384) (o : Fin 512), i = ix2 p o := ⟨i 0, i 1, eq_ix2 i⟩
  exact out_at x0 x1 x2 x3 x4 x5 x6 x7 p o

/-- The reference's second result is the specification's new-state array. -/
theorem hidden_eq : val_main_v45 (F := Ideal) x0 x1 x2 x3 x4 x5 = hnewArr x0 x1 x2 x3 x4 x5 := by
  funext i
  obtain ⟨z, p, q, rfl⟩ : ∃ (z : Fin 1) (p : Fin 16384) (q : Fin 1024), i = ix3 z p q := ⟨i 0, i 1, i 2, eq_ix3 i⟩
  exact hidden_at x0 x1 x2 x3 x4 x5 z p q

end Cert.ReferenceIdeal.RefSpec

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KernelPoint.lean ====
/-
  What the kernel's body leaves in its two output blocks at one grid point, entry by entry.

  The body is run on eight loaded blocks: a 512-row block of the input, the matching 512-row slab of the state,
  the two transposed weight matrices and their bias rows (whole), the transposed output weights and bias (whole).
  The two matrix products into a zero accumulator are plain sums over the contracted axis; adding a broadcast
  [1, n] bias row adds its entry of the same column; the three gates are column slices at offsets 0, 1024, 2048.
  So the new-state block at (r, q) is the cell of the specification on the block's rows, and the output block at
  (r, o) is the hyperbolic tangent of the new-state row against a column of the output weights plus the bias.

  The lemmas are stated for arbitrary vectors of the blocks' shapes; the last two take, as hypotheses, how each
  block's entries are entries of whole arrays (row `r` of the block is row `row r` of the array).
-/
import proofs.«113060_j3066606649895_2_alg».proof.Proof.Gen.KernelIdeal.Value
import proofs.«113060_j3066606649895_2_alg».proof.Proof.LibPlainMatmul
import proofs.«113060_j3066606649895_2_alg».proof.Proof.LibRows
import proofs.«113060_j3066606649895_2_alg».proof.Proof.Spec
import Idealize.ShloMosaic.Lib.ValueIdx
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx Cert.GruSpec

theorem hz2 : (![0, 0] : Fin 2 → Nat) = fun _ => 0 := funext fun a => by fin_cases a <;> rfl
theorem hz3 : (![0, 0, 0] : Fin 3 → Nat) = fun _ => 0 := funext fun a => by fin_cases a <;> rfl

/-- The input's affine map on blocks: a 512 × 512 block against the 512 × 3072 transposed weights, plus the bias row. -/
theorem pay7_at (P0 : Vec Ideal S512x512 .f32) (P1 : Vec Ideal S512x3072 .bf16) (P2 : Vec Ideal S1x3072 .f32)
    (r : Fin 512) (j : Fin 3072) :
    k0_pay7 (F := Ideal) P0 P1 P2 (ix2 r j) = (∑ k : Fin 512, P0 (ix2 r k) * P1 (ix2 k j)) + P2 (ix2 0 j) := by
  unfold k0_pay7
  rw [addf_apply]
  simp only [matmul]
  rw [Cert.LibPlainMatmul.matmul_zero_apply dot_S512x512_S512x3072_S512x3072_1_0_0_1_n_n rfl rfl rfl rfl rfl rfl,
    Cert.Rows.bcast_row (by decide)]
  simp only [shapeCast_self]
  rfl

/-- The state's affine map on blocks: the slab's row `r` against the 1024 × 3072 transposed weights, plus the bias row. -/
theorem pay8_at (P3 : Vec Ideal S1x512x1024 .f32) (P4 : Vec Ideal S1024x3072 .bf16) (P5 : Vec Ideal S1x3072 .f32)
    (r : Fin 512) (j : Fin 3072) :
    k0_pay8 (F := Ideal) P3 P4 P5 (ix2 r j) = (∑ k : Fin 1024, P3 (ix3 0 r k) * P4 (ix2 k j)) + P5 (ix2 0 j) := by
  unfold k0_pay8 k0_pay4
  dsimp only
  rw [addf_apply]
  simp only [matmul]
  rw [Cert.LibPlainMatmul.matmul_zero_apply dot_S512x1024_S1024x3072_S512x3072_1_0_0_1_n_n rfl rfl rfl rfl rfl rfl,
    Cert.Rows.bcast_row (by decide)]
  have e : ∀ (h : S1x512x1024.ShapeCasts S512x1024) (k : Fin 1024), shapeCast S512x1024 P3 h (ix2 r k) = P3 (ix3 0 r k) :=
    fun h k => shapeCast_apply P3 h (ix2 r k) (ix3 0 r k) (by
      rw [Shape.rowMajor_val_three, Shape.rowMajor_val_two]
      show (0 * 512 + r.val) * 1024 + k.val = r.val * 1024 + k.val; omega)
  simp only [shapeCast_self, truncf_apply, e]

/-- The generated entry-by-entry form of the new-state block, read at explicit coordinates: the cell on the
    block's pre-activations at the three column groups and the old state's entry. -/
theorem E9_at (P0 : Vec Ideal S512x512 .f32) (P1 : Vec Ideal S512x3072 .bf16) (P2 : Vec Ideal S1x3072 .f32)
    (P3 : Vec Ideal S1x512x1024 .f32) (P4 : Vec Ideal S1024x3072 .bf16) (P5 : Vec Ideal S1x3072 .f32)
    (z : Fin 1) (r : Fin 512) (q : Fin 1024) :
    Value.E9 (F := Ideal) P0 P1 P2 P3 P4 P5 (ix3 z r q)
      = cell (k0_pay7 P0 P1 P2 (ix2 r (colR q))) (k0_pay8 P3 P4 P5 (ix2 r (colR q)))
          (k0_pay7 P0 P1 P2 (ix2 r (colZ q))) (k0_pay8 P3 P4 P5 (ix2 r (colZ q)))
          (k0_pay7 P0 P1 P2 (ix2 r (colN q))) (k0_pay8 P3 P4 P5 (ix2 r (colN q))) (P3 (ix3 0 r q)) := by
  have e0 : Value.ix9_0 (ix3 z r q) = ix2 r (colZ q) := funext fun a => Fin.ext (by match a with | ⟨0, _⟩ => rfl | ⟨1, _⟩ => rfl)
  have e1 : Value.ix9_1 (ix3 z r q) = ix2 r (colZ q) := funext fun a => Fin.ext (by match a with | ⟨0, _⟩ => rfl | ⟨1, _⟩ => rfl)
  have e2 : Value.ix9_2 (ix3 z r q) = ix2 r (colN q) := funext fun a => Fin.ext (by match a with | ⟨0, _⟩ => rfl | ⟨1, _⟩ => rfl)
  have e3 : Value.ix9_3 (ix3 z r q) = ix2 r (colR q) := funext fun a => Fin.ext (by match a with | ⟨0, _⟩ => rfl | ⟨1, _⟩ => rfl)
  have e4 : Value.ix9_4 (ix3 z r q) = ix2 r (colR q) := funext fun a => Fin.ext (by match a with | ⟨0, _⟩ => rfl | ⟨1, _⟩ => rfl)
  have e5 : Value.ix9_5 (ix3 z r q) = ix2 r (colN q) := funext fun a => Fin.ext (by match a with | ⟨0, _⟩ => rfl | ⟨1, _⟩ => rfl)
  have e6 : Value.ix9_6 (ix3 z r q) = ix2 r (colZ q) := funext fun a => Fin.ext (by match a with | ⟨0, _⟩ => rfl | ⟨1, _⟩ => rfl)
  have e7 : Value.ix9_7 (ix3 z r q) = ix2 r (colZ q) := funext fun a => Fin.ext (by match a with | ⟨0, _⟩ => rfl | ⟨1, _⟩ => rfl)
  have e8 : Value.ix9_8 (ix3 z r q) = ix3 0 r q :=
    funext fun a => Fin.ext (by match a with | ⟨0, _⟩ => rfl | ⟨1, _⟩ => rfl | ⟨2, _⟩ => rfl)
  show FloatOps.addf (FloatOps.mulf (FloatOps.subf (Scalar.ofBits .f32 0x3F800000#32) (FloatOps.logistic (FloatOps.addf ((k0_pay7 P0 P1 P2) (Value.ix9_0 (ix3 z r q))) ((k0_pay8 P3 P4 P5) (Value.ix9_1 (ix3 z r q)))))) (FloatOps.tanh (FloatOps.addf ((k0_pay7 P0 P1 P2) (Value.ix9_2 (ix3 z r q))) (FloatOps.mulf (FloatOps.logistic (FloatOps.addf ((k0_pay7 P0 P1 P2) (Value.ix9_3 (ix3 z r q))) ((k0_pay8 P3 P4 P5) (Value.ix9_4 (ix3 z r q))))) ((k0_pay8 P3 P4 P5) (Value.ix9_5 (ix3 z r q))))))) (FloatOps.mulf (FloatOps.logistic (FloatOps.addf ((k0_pay7 P0 P1 P2) (Value.ix9_6 (ix3 z r q))) ((k0_pay8 P3 P4 P5) (Value.ix9_7 (ix3 z r q))))) (P3 (Value.ix9_8 (ix3 z r q)))) = _
  rw [e0, e1, e2, e3, e4, e5, e6, e7, e8]
  rfl

/-- The stored new-state payload, entry by entry, is the generated form `E9`. -/
theorem pay3_eq (P0 : Vec Ideal S512x512 .f32) (P1 : Vec Ideal S512x3072 .bf16) (P2 : Vec Ideal S1x3072 .f32)
    (P3 : Vec Ideal S1x512x1024 .f32) (P4 : Vec Ideal S1024x3072 .bf16) (P5 : Vec Ideal S1x3072 .f32) (y : S1x512x1024.Idx) :
    k0_pay3 (F := Ideal) (k0_pay4 P3) (k0_pay9 P0 P3 P1 P4 P2 P5) (k0_pay10 P0 P3 P1 P4 P2 P5) y
      = Value.E9 (F := Ideal) P0 P1 P2 P3 P4 P5 y :=
  (congrFun (View.canon_unit_zero (Val := Elt Ideal) hz3 _ _) y).symm.trans (Value.canon9_eq (F := Ideal) P0 P1 P2 P3 P4 P5 y)

/-- The new state before its unit axis is put back: the same entries as a 512 × 1024 matrix. -/
theorem pay1_at (P0 : Vec Ideal S512x512 .f32) (P1 : Vec Ideal S512x3072 .bf16) (P2 : Vec Ideal S1x3072 .f32)
    (P3 : Vec Ideal S1x512x1024 .f32) (P4 : Vec Ideal S1024x3072 .bf16) (P5 : Vec Ideal S1x3072 .f32) (r : Fin 512) (q : Fin 1024) :
    k0_pay1 (F := Ideal) (k0_pay4 P3) (k0_pay9 P0 P3 P1 P4 P2 P5) (k0_pay10 P0 P3 P1 P4 P2 P5) (ix2 r q)
      = Value.E9 (F := Ideal) P0 P1 P2 P3 P4 P5 (ix3 0 r q) := by
  rw [← pay3_eq P0 P1 P2 P3 P4 P5 (ix3 0 r q)]
  unfold k0_pay3
  exact (shapeCast_apply _ _ (ix3 0 r q) (ix2 r q) (by
    rw [Shape.rowMajor_val_two, Shape.rowMajor_val_three]
    show r.val * 1024 + q.val = (0 * 512 + r.val) * 1024 + q.val; omega)).symm

section Blocks
variable (x0 : Vec Ideal S512x512 .f32) (x1 : Vec Ideal S1x512x1024 .f32) (x2 : Vec Ideal S512x3072 .bf16)
  (x3 : Vec Ideal S1024x3072 .bf16) (x4 x5 : Vec Ideal S1x3072 .f32) (x6 : Vec Ideal S1024x512 .bf16) (x7 : Vec Ideal S1x512 .f32)
  (X : (⟨2, ![16384, 512]⟩ : Shape).Idx → EReal) (Hd : (⟨3, ![1, 16384, 1024]⟩ : Shape).Idx → EReal)
  (Wih : (⟨2, ![3072, 512]⟩ : Shape).Idx → EReal) (Whh : (⟨2, ![3072, 1024]⟩ : Shape).Idx → EReal)
  (Bih Bhh : (⟨1, ![3072]⟩ : Shape).Idx → EReal)
  (Wout : (⟨2, ![512, 1024]⟩ : Shape).Idx → EReal) (Bout : (⟨1, ![512]⟩ : Shape).Idx → EReal)
  (row : Fin 512 → Fin 16384)
  (h0 : ∀ (r : Fin 512) (k : Fin 512), x0 (ix2 r k) = X (ix2 (row r) k))
  (h1 : ∀ (r : Fin 512) (k : Fin 1024), x1 (ix3 0 r k) = Hd (ix3 0 (row r) k))
  (h2 : ∀ (k : Fin 512) (j : Fin 3072), x2 (ix2 k j) = Wih (ix2 j k))
  (h3 : ∀ (k : Fin 1024) (j : Fin 3072), x3 (ix2 k j) = Whh (ix2 j k))
  (h4 : ∀ j : Fin 3072, x4 (ix2 0 j) = Bih (ix1 j))
  (h5 : ∀ j : Fin 3072, x5 (ix2 0 j) = Bhh (ix1 j))

include h0 h1 h2 h3 h4 h5 in
/-- The generated form of the new-state block is the specification's new state on the block's rows. -/
theorem E9_spec (z : Fin 1) (r : Fin 512) (q : Fin 1024) :
    Value.E9 (F := Ideal) x0 x2 x4 x1 x3 x5 (ix3 z r q) = hnew X Hd Wih Whh Bih Bhh (row r) q := by
  rw [E9_at, pay7_at, pay7_at, pay7_at, pay8_at, pay8_at, pay8_at]
  unfold hnew gi gh
  simp only [h0, h1, h2, h3, h4, h5]

include h0 h1 h2 h3 h4 h5 in
/-- THE NEW-STATE BLOCK after the body, at (z, r, q): the specification's new state at row `row r`, column `q`. -/
theorem hidden_block (z : Fin 1) (r : Fin 512) (q : Fin 1024) :
    out0_9 (F := Ideal) x0 x1 x2 x3 x4 x5 x6 x7 (ix3 z r q) = hnew X Hd Wih Whh Bih Bhh (row r) q := by
  unfold out0_9
  simp only [View.ld_unit_zero (S := S512x512) hz2, View.ld_unit_zero (S := S1x512x1024) hz3,
    View.ld_unit_zero (S := S512x3072) hz2, View.ld_unit_zero (S := S1024x3072) hz2, View.ld_unit_zero (S := S1x3072) hz2]
  exact (Value.canon9_eq (F := Ideal) x0 x2 x4 x1 x3 x5 (ix3 z r q)).trans
    (E9_spec x0 x1 x2 x3 x4 x5 X Hd Wih Whh Bih Bhh row h0 h1 h2 h3 h4 h5 z r q)

variable (h6 : ∀ (q : Fin 1024) (o : Fin 512), x6 (ix2 q o) = Wout (ix2 o q))
  (h7 : ∀ o : Fin 512, x7 (ix2 0 o) = Bout (ix1 o))

include h0 h1 h2 h3 h4 h5 h6 h7 in
/-- THE OUTPUT BLOCK after the body, at (r, o): the specification's output at row `row r`, column `o`. -/
theorem out_block (r : Fin 512) (o : Fin 512) :
    out0_8 (F := Ideal) x0 x1 x2 x3 x4 x5 x6 x7 (ix2 r o) = out X Hd Wih Whh Bih Bhh Wout Bout (row r) o := by
  unfold out0_8
  rw [View.canon_unit_zero hz2]
  simp only [View.ld_unit_zero (S := S512x512) hz2, View.ld_unit_zero (S := S1x512x1024) hz3,
    View.ld_unit_zero (S := S512x3072) hz2, View.ld_unit_zero (S := S1024x3072) hz2, View.ld_unit_zero (S := S1x3072) hz2,
    View.ld_unit_zero (S := S1024x512) hz2, View.ld_unit_zero (S := S1x512) hz2]
  unfold k0_pay2 k0_pay5 k0_pay6
  dsimp only
  show FloatOps.tanh (addf _ _ (ix2 r o)) = _
  rw [addf_apply]
  simp only [matmul]
  rw [Cert.LibPlainMatmul.matmul_zero_apply dot_S512x1024_S1024x512_S512x512_1_0_0_1_n_n rfl rfl rfl rfl rfl rfl,
    Cert.Rows.bcast_row (by decide)]
  simp only [shapeCast_self, truncf_apply, pay1_at,
    E9_spec x0 x1 x2 x3 x4 x5 X Hd Wih Whh Bih Bhh row h0 h1 h2 h3 h4 h5, h6, h7]
  rfl

end Blocks

end Cert.KernelIdeal.Point

end
-- ==== Proof.KernelArrays.lean ====
/-
  From blocks to whole arrays: what the kernel's run leaves in its two result arrays.

  The grid has 32 points. At point `t` the input window holds rows 512·t … 512·t + 511 of the input, the state
  window the same rows of the state's one slab; the six weight and bias windows hold their whole arrays at every
  point. Those arrays are written before the region by host operations: each weight matrix transposed (and
  narrowed, which changes nothing over the extended reals), each bias vector recast as a one-row matrix. Each
  output window writes back rows 512·t … 512·t + 511 of its array, so row `p` of either result is written at
  point `p / 512`, and the 32 blocks cover both arrays. Hence the results are the specification's arrays.
-/
import proofs.«113060_j3066606649895_2_alg».proof.Proof.Gen.KernelIdeal.Value
import proofs.«113060_j3066606649895_2_alg».proof.Proof.KernelPoint
import Idealize.ShloMosaic.Lib.StableHlo.Run
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.GruSpec
open Idealize.ShloMosaic.Pipeline (Dat)

variable (m : (ℓ : Loc nD τ sig) → Buf (Elt Ideal) ℓ) (ρ : Dev nD → PrngReg)

/-! ## The arrays the host operations write before the region -/

/-- The transposed input weights, as the region finds them. -/
theorem wihT_at (c : Dev nD) (k : Fin 512) (j : Fin 3072) :
    (V m c main_v1 : S512x3072.Idx → EReal) (ix2 k j) = (m ((c : Thread nD τ).loc main_arg2) : S3072x512.Idx → EReal) (ix2 j k) := by
  have e : @Eq (S512x3072.Idx → EReal) (V m c main_v1)
      (truncf (F := Ideal) .bf16 (transpose S512x3072 [1, 0] (m ((c : Thread nD τ).loc main_arg2)) Facts₀.transposes_S3072x512_S512x3072_1_0) Facts₀.bitsLt_bf16_f32) := by
    dsimp only [Gen.V, Gen.hostOps0]; after_results
  rw [e]
  exact transpose_apply [1, 0] _ _ (ix2 k j) (ix2 j k) (fun b => match b with | ⟨0, _⟩ => rfl | ⟨1, _⟩ => rfl)

/-- The transposed state weights. -/
theorem whhT_at (c : Dev nD) (k : Fin 1024) (j : Fin 3072) :
    (V m c main_v3 : S1024x3072.Idx → EReal) (ix2 k j) = (m ((c : Thread nD τ).loc main_arg3) : S3072x1024.Idx → EReal) (ix2 j k) := by
  have e : @Eq (S1024x3072.Idx → EReal) (V m c main_v3)
      (truncf (F := Ideal) .bf16 (transpose S1024x3072 [1, 0] (m ((c : Thread nD τ).loc main_arg3)) Facts₀.transposes_S3072x1024_S1024x3072_1_0) Facts₀.bitsLt_bf16_f32) := by
    dsimp only [Gen.V, Gen.hostOps0]; after_results
  rw [e]
  exact transpose_apply [1, 0] _ _ (ix2 k j) (ix2 j k) (fun b => match b with | ⟨0, _⟩ => rfl | ⟨1, _⟩ => rfl)

/-- The transposed output weights. -/
theorem woutT_at (c : Dev nD) (q : Fin 1024) (o : Fin 512) :
    (V m c main_v5 : S1024x512.Idx → EReal) (ix2 q o) = (m ((c : Thread nD τ).loc main_arg6) : S512x1024.Idx → EReal) (ix2 o q) := by
  have e : @Eq (S1024x512.Idx → EReal) (V m c main_v5)
      (truncf (F := Ideal) .bf16 (transpose S1024x512 [1, 0] (m ((c : Thread nD τ).loc main_arg6)) Facts₀.transposes_S512x1024_S1024x512_1_0) Facts₀.bitsLt_bf16_f32) := by
    dsimp only [Gen.V, Gen.hostOps0]; after_results
  rw [e]
  exact transpose_apply [1, 0] _ _ (ix2 q o) (ix2 o q) (fun b => match b with | ⟨0, _⟩ => rfl | ⟨1, _⟩ => rfl)

/-- The input bias as a one-row matrix. -/
theorem bih_at (c : Dev nD) (j : Fin 3072) :
    (V m c main_v6 : S1x3072.Idx → EReal) (ix2 0 j) = (m ((c : Thread nD τ).loc main_arg4) : S3072.Idx → EReal) (ix1 j) := by
  have e : @Eq (S1x3072.Idx → EReal) (V m c main_v6)
      (shapeCast S1x3072 (m ((c : Thread nD τ).loc main_arg4)) Facts₀.shapeCasts_S3072_S1x3072) := by
    dsimp only [Gen.V, Gen.hostOps0]; after_results; rfl
  rw [e]
  exact shapeCast_apply _ _ (ix2 0 j) (ix1 j) (by
    rw [Shape.rowMajor_val_one, Shape.rowMajor_val_two]; show j.val = 0 * 3072 + j.val; omega)

/-- The state bias as a one-row matrix. -/
theorem bhh_at (c : Dev nD) (j : Fin 3072) :
    (V m c main_v7 : S1x3072.Idx → EReal) (ix2 0 j) = (m ((c : Thread nD τ).loc main_arg5) : S3072.Idx → EReal) (ix1 j) := by
  have e : @Eq (S1x3072.Idx → EReal) (V m c main_v7)
      (shapeCast S1x3072 (m ((c : Thread nD τ).loc main_arg5)) Facts₀.shapeCasts_S3072_S1x3072) := by
    dsimp only [Gen.V, Gen.hostOps0]; after_results; rfl
  rw [e]
  exact shapeCast_apply _ _ (ix2 0 j) (ix1 j) (by
    rw [Shape.rowMajor_val_one, Shape.rowMajor_val_two]; show j.val = 0 * 3072 + j.val; omega)

/-- The output bias as a one-row matrix. -/
theorem bout_at (c : Dev nD) (o : Fin 512) :
    (V m c main_v8 : S1x512.Idx → EReal) (ix2 0 o) = (m ((c : Thread nD τ).loc main_arg7) : S512.Idx → EReal) (ix1 o) := by
  have e : @Eq (S1x512.Idx → EReal) (V m c main_v8)
      (shapeCast S1x512 (m ((c : Thread nD τ).loc main_arg7)) Facts₀.shapeCasts_S512_S1x512) := by
    dsimp only [Gen.V, Gen.hostOps0]; after_results; rfl
  rw [e]
  exact shapeCast_apply _ _ (ix2 0 o) (ix1 o) (by
    rw [Shape.rowMajor_val_one, Shape.rowMajor_val_two]; show o.val = 0 * 512 + o.val; omega)

/-! ## The blocks at a grid point -/

theorem lt32 (t : Fin cfg0.N) : t.val < 32 := by
  have h := t.isLt
  have hN : cfg0.N = 32 := N_0
  omega

/-- Row `r` of the block at point `t` is row `512·t + r` of the array. -/
def row (t : Fin cfg0.N) (r : Fin 512) : Fin 16384 := ⟨512 * t.val + r.val, by have := lt32 t; have := r.isLt; omega⟩

/-- The printed index maps, decided over the 32 points: the input, state and the two output windows move one block
    of rows per point; the weight and bias windows stay at their one block. -/
theorem index_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 3) = 0 ∧ win0_9.index t (1 : Fin 3) = t.val ∧ win0_9.index t (2 : Fin 3) = 0 :=
  (by decide +kernel : ∀ t : Fin grid0.N, _)

/-- The input block. -/
theorem iblk0_at (c : Dev nD) (t : Fin cfg0.N) (r k : Fin 512) :
    (iblk m c 0 t : Vec Ideal S512x512 .f32) (ix2 r k)
      = (m ((c : Thread nD τ).loc main_arg0) : S16384x512.Idx → EReal) (ix2 (row t r) k) := by
  obtain ⟨e0, e1, -⟩ := index_facts t
  unfold iblk
  rw [View.read_apply]
  show V m c main_arg0 _ = _
  rw [V_main_arg0]
  congr 1; funext a; apply Fin.ext
  match a with
  | ⟨0, _⟩ => show win0_0.index t (0 : Fin 2) * 512 + 1 * r.val = 512 * t.val + r.val; rw [e0]; omega
  | ⟨1, _⟩ => show win0_0.index t (1 : Fin 2) * 512 + 1 * k.val = k.val; rw [e1]; omega

/-- The state block. -/
theorem iblk1_at (c : Dev nD) (t : Fin cfg0.N) (r : Fin 512) (k : Fin 1024) :
    (iblk m c 1 t : Vec Ideal S1x512x1024 .f32) (ix3 0 r k)
      = (m ((c : Thread nD τ).loc main_arg1) : S1x16384x1024.Idx → EReal) (ix3 0 (row t r) k) := by
  obtain ⟨-, -, e0, e1, e2, -⟩ := index_facts t
  unfold iblk
  rw [View.read_apply]
  show V m c main_arg1 _ = _
  rw [V_main_arg1]
  congr 1; funext a; apply Fin.ext
  match a with
  | ⟨0, _⟩ => show win0_1.index t (0 : Fin 3) * 1 + 1 * 0 = 0; rw [e0]
  | ⟨1, _⟩ => show win0_1.index t (1 : Fin 3) * 512 + 1 * r.val = 512 * t.val + r.val; rw [e1]; omega
  | ⟨2, _⟩ => show win0_1.index t (2 : Fin 3) * 1024 + 1 * k.val = k.val; rw [e2]; omega

/-- The input-weights block is the whole transposed matrix. -/
theorem iblk2_at (c : Dev nD) (t : Fin cfg0.N) (k : Fin 512) (j : Fin 3072) :
    (iblk m c 2 t : Vec Ideal S512x3072 .bf16) (ix2 k j)
      = (m ((c : Thread nD τ).loc main_arg2) : S3072x512.Idx → EReal) (ix2 j k) := by
  obtain ⟨-, -, -, -, -, e0, e1, -⟩ := index_facts t
  rw [← wihT_at m c k j]
  unfold iblk
  rw [View.read_apply]
  show V m c main_v1 _ = _
  congr 1; funext a; apply Fin.ext
  match a with
  | ⟨0, _⟩ => show win0_2.index t (0 : Fin 2) * 512 + 1 * k.val = k.val; rw [e0]; omega
  | ⟨1, _⟩ => show win0_2.index t (1 : Fin 2) * 3072 + 1 * j.val = j.val; rw [e1]; omega

/-- The state-weights block is the whole transposed matrix. -/
theorem iblk3_at (c : Dev nD) (t : Fin cfg0.N) (k : Fin 1024) (j : Fin 3072) :
    (iblk m c 3 t : Vec Ideal S1024x3072 .bf16) (ix2 k j)
      = (m ((c : Thread nD τ).loc main_arg3) : S3072x1024.Idx → EReal) (ix2 j k) := by
  obtain ⟨-, -, -, -, -, -, -, e0, e1, -⟩ := index_facts t
  rw [← whhT_at m c k j]
  unfold iblk
  rw [View.read_apply]
  show V m c main_v3 _ = _
  congr 1; funext a; apply Fin.ext
  match a with
  | ⟨0, _⟩ => show win0_3.index t (0 : Fin 2) * 1024 + 1 * k.val = k.val; rw [e0]; omega
  | ⟨1, _⟩ => show win0_3.index t (1 : Fin 2) * 3072 + 1 * j.val = j.val; rw [e1]; omega

/-- The input-bias block is the whole row. -/
theorem iblk4_at (c : Dev nD) (t : Fin cfg0.N) (j : Fin 3072) :
    (iblk m c 4 t : Vec Ideal S1x3072 .f32) (ix2 0 j)
      = (m ((c : Thread nD τ).loc main_arg4) : S3072.Idx → EReal) (ix1 j) := by
  obtain ⟨-, -, -, -, -, -, -, -, -, e0, e1, -⟩ := index_facts t
  rw [← bih_at m c j]
  unfold iblk
  rw [View.read_apply]
  show V m c main_v6 _ = _
  congr 1; funext a; apply Fin.ext
  match a with
  | ⟨0, _⟩ => show win0_4.index t (0 : Fin 2) * 1 + 1 * 0 = 0; rw [e0]
  | ⟨1, _⟩ => show win0_4.index t (1 : Fin 2) * 3072 + 1 * j.val = j.val; rw [e1]; omega

/-- The state-bias block is the whole row. -/
theorem iblk5_at (c : Dev nD) (t : Fin cfg0.N) (j : Fin 3072) :
    (iblk m c 5 t : Vec Ideal S1x3072 .f32) (ix2 0 j)
      = (m ((c : Thread nD τ).loc main_arg5) : S3072.Idx → EReal) (ix1 j) := by
  obtain ⟨-, -, -, -, -, -, -, -, -, -, -, e0, e1, -⟩ := index_facts t
  rw [← bhh_at m c j]
  unfold iblk
  rw [View.read_apply]
  show V m c main_v7 _ = _
  congr 1; funext a; apply Fin.ext
  match a with
  | ⟨0, _⟩ => show win0_5.index t (0 : Fin 2) * 1 + 1 * 0 = 0; rw [e0]
  | ⟨1, _⟩ => show win0_5.index t (1 : Fin 2) * 3072 + 1 * j.val = j.val; rw [e1]; omega

/-- The output-weights block is the whole transposed matrix. -/
theorem iblk6_at (c : Dev nD) (t : Fin cfg0.N) (q : Fin 1024) (o : Fin 512) :
    (iblk m c 6 t : Vec Ideal S1024x512 .bf16) (ix2 q o)
      = (m ((c : Thread nD τ).loc main_arg6) : S512x1024.Idx → EReal) (ix2 o q) := by
  obtain ⟨-, -, -, -, -, -, -, -, -, -, -, -, -, e0, e1, -⟩ := index_facts t
  rw [← woutT_at m c q o]
  unfold iblk
  rw [View.read_apply]
  show V m c main_v5 _ = _
  congr 1; funext a; apply Fin.ext
  match a with
  | ⟨0, _⟩ => show win0_6.index t (0 : Fin 2) * 1024 + 1 * q.val = q.val; rw [e0]; omega
  | ⟨1, _⟩ => show win0_6.index t (1 : Fin 2) * 512 + 1 * o.val = o.val; rw [e1]; omega

/-- The output-bias block is the whole row. -/
theorem iblk7_at (c : Dev nD) (t : Fin cfg0.N) (o : Fin 512) :
    (iblk m c 7 t : Vec Ideal S1x512 .f32) (ix2 0 o)
      = (m ((c : Thread nD τ).loc main_arg7) : S512.Idx → EReal) (ix1 o) := by
  obtain ⟨-, -, -, -, -, -, -, -, -, -, -, -, -, -, -, e0, e1, -⟩ := index_facts t
  rw [← bout_at m c o]
  unfold iblk
  rw [View.read_apply]
  show V m c main_v8 _ = _
  congr 1; funext a; apply Fin.ext
  match a with
  | ⟨0, _⟩ => show win0_7.index t (0 : Fin 2) * 1 + 1 * 0 = 0; rw [e0]
  | ⟨1, _⟩ => show win0_7.index t (1 : Fin 2) * 512 + 1 * o.val = o.val; rw [e1]; omega

/-! ## The two result arrays -/

/-- The specification's output array of the argument arrays on core `c`. -/
def outOf (c : Dev nD) : Buf (Elt Ideal) ((c : Thread nD τ).loc main_v9_0) :=
  outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The specification's new-state array of the argument arrays on core `c`. -/
def hiddenOf (c : Dev nD) : Buf (Elt Ideal) ((c : Thread nD τ).loc main_v9_1) :=
  hnewArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The output block the body leaves at point `t`, entry by entry, is the specification's array under the block. -/
theorem out_point (c : Dev nD) (t : Fin cfg0.N) (j : S512x512.Idx) :
    out0_8 (F := Ideal) (iblk m c 0 t) (iblk m c 1 t) (iblk m c 2 t) (iblk m c 3 t) (iblk m c 4 t) (iblk m c 5 t) (iblk m c 6 t) (iblk m c 7 t) j
      = outOf m c (((cfg0.win 8).blk t).view.emb j) := by
  obtain ⟨r, o, rfl⟩ : ∃ (r : Fin 512) (o : Fin 512), j = ix2 r o := ⟨j 0, j 1, eq_ix2 j⟩
  obtain ⟨-, -, -, -, -, -, -, -, -, -, -, -, -, -, -, -, -, e0, e1, -⟩ := index_facts t
  refine (Point.out_block (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (row t)
    (iblk0_at m c t) (iblk1_at m c t) (iblk2_at m c t) (iblk3_at m c t) (iblk4_at m c t) (iblk5_at m c t)
    (iblk6_at m c t) (iblk7_at m c t) r o).trans ?_
  unfold outOf outArr
  congr 1 <;> apply Fin.ext
  · show 512 * t.val + r.val = win0_8.index t (0 : Fin 2) * 512 + 1 * r.val; rw [e0]; omega
  · show o.val = win0_8.index t (1 : Fin 2) * 512 + 1 * o.val; rw [e1]; omega

/-- The new-state block the body leaves at point `t`, entry by entry, is the specification's array under the block. -/
theorem hidden_point (c : Dev nD) (t : Fin cfg0.N) (j : S1x512x1024.Idx) :
    out0_9 (F := Ideal) (iblk m c 0 t) (iblk m c 1 t) (iblk m c 2 t) (iblk m c 3 t) (iblk m c 4 t) (iblk m c 5 t) (iblk m c 6 t) (iblk m c 7 t) j
      = hiddenOf m c (((cfg0.win 9).blk t).view.emb j) := by
  obtain ⟨z, r, q, rfl⟩ : ∃ (z : Fin 1) (r : Fin 512) (q : Fin 1024), j = ix3 z r q := ⟨j 0, j 1, j 2, eq_ix3 j⟩
  obtain ⟨-, -, -, -, -, -, -, -, -, -, -, -, -, -, -, -, -, -, -, e0, e1, e2⟩ := index_facts t
  refine (Point.hidden_block (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (row t)
    (iblk0_at m c t) (iblk1_at m c t) (iblk2_at m c t) (iblk3_at m c t) (iblk4_at m c t) (iblk5_at m c t) z r q).trans ?_
  unfold hiddenOf hnewArr
  congr 1 <;> apply Fin.ext
  · show 512 * t.val + r.val = win0_9.index t (1 : Fin 3) * 512 + 1 * r.val; rw [e1]; omega
  · show q.val = win0_9.index t (2 : Fin 3) * 1024 + 1 * q.val; rw [e2]; omega

/-- What point `t` writes back to the output array is block `t` of the specification's output. -/
theorem flushed8_eq (c : Dev nD) (t : Fin cfg0.N) :
    (dats m 0 c).flushed 8 t = ((cfg0.win 8).blk t).view.read (Elt Ideal) (outOf m c) := by
  rw [Value.flushed8]
  exact funext fun j => out_point m c t j

/-- What point `t` writes back to the new-state array is block `t` of the specification's new state. -/
theorem flushed9_eq (c : Dev nD) (t : Fin cfg0.N) :
    (dats m 0 c).flushed 9 t = ((cfg0.win 9).blk t).view.read (Elt Ideal) (hiddenOf m c) := by
  rw [Value.flushed9]
  exact funext fun j => hidden_point m c t j

/-- An index of the output array is in point `t`'s block iff each coordinate is in the block's range. -/
theorem mem_blk8 (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v9_0).slice (win0_8.rect t)).set ↔ _
  rw [View.set_slice_whole, Rect.mem_set_unit]
  exact Iff.rfl

/-- An index of the new-state array is in point `t`'s block iff each coordinate is in the block's range. -/
theorem mem_blk9 (t : Fin cfg0.N) (i : S1x16384x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v9_1).slice (win0_9.rect t)).set ↔ _
  rw [View.set_slice_whole, Rect.mem_set_unit]
  exact Iff.rfl

/-- The point that writes row `p`. -/
def pointOf (p : Nat) (hp : p < 16384) : Fin cfg0.N := ⟨p / 512, by rw [show cfg0.N = 32 from N_0]; omega⟩

/-- THE OUTPUT ARRAY after the run is the specification's output: row `p` is written at point `p / 512`. -/
theorem final8 (c : Dev nD) : (dats m 0 c).arrAt 8 cfg0.N = outOf m c :=
  (dats m 0 c).arrAt_eq_of_cover 8 (outOf m c) (fun t _ => flushed8_eq m c t) fun i => by
    have h0 : (i 0).val < 16384 := (i 0).isLt
    have h1 : (i 1).val < 512 := (i 1).isLt
    obtain ⟨-, -, -, -, -, -, -, -, -, -, -, -, -, -, -, -, -, e0, e1, -⟩ := index_facts (pointOf (i 0).val h0)
    refine ⟨pointOf (i 0).val h0, flush0_8 _, ?_⟩
    rw [mem_blk8]
    intro a
    match a with
    | ⟨0, _⟩ =>
      show win0_8.index (pointOf (i 0).val h0) (0 : Fin 2) * 512 ≤ (i 0).val ∧ (i 0).val < win0_8.index (pointOf (i 0).val h0) (0 : Fin 2) * 512 + 512
      rw [e0]; show (i 0).val / 512 * 512 ≤ (i 0).val ∧ (i 0).val < (i 0).val / 512 * 512 + 512; omega
    | ⟨1, _⟩ =>
      show win0_8.index (pointOf (i 0).val h0) (1 : Fin 2) * 512 ≤ (i 1).val ∧ (i 1).val < win0_8.index (pointOf (i 0).val h0) (1 : Fin 2) * 512 + 512
      rw [e1]; omega

/-- THE NEW-STATE ARRAY after the run is the specification's new state. -/
theorem final9 (c : Dev nD) : (dats m 0 c).arrAt 9 cfg0.N = hiddenOf m c :=
  (dats m 0 c).arrAt_eq_of_cover 9 (hiddenOf m c) (fun t _ => flushed9_eq m c t) fun i => by
    have h0 : (i 0).val < 1 := (i 0).isLt
    have h1 : (i 1).val < 16384 := (i 1).isLt
    have h2 : (i 2).val < 1024 := (i 2).isLt
    obtain ⟨-, -, -, -, -, -, -, -, -, -, -, -, -, -, -, -, -, -, -, e0, e1, e2⟩ := index_facts (pointOf (i 1).val h1)
    refine ⟨pointOf (i 1).val h1, flush0_9 _, ?_⟩
    rw [mem_blk9]
    intro a
    match a with
    | ⟨0, _⟩ =>
      show win0_9.index (pointOf (i 1).val h1) (0 : Fin 3) * 1 ≤ (i 0).val ∧ (i 0).val < win0_9.index (pointOf (i 1).val h1) (0 : Fin 3) * 1 + 1
      rw [e0]; omega
    | ⟨1, _⟩ =>
      show win0_9.index (pointOf (i 1).val h1) (1 : Fin 3) * 512 ≤ (i 1).val ∧ (i 1).val < win0_9.index (pointOf (i 1).val h1) (1 : Fin 3) * 512 + 512
      rw [e1]; show (i 1).val / 512 * 512 ≤ (i 1).val ∧ (i 1).val < (i 1).val / 512 * 512 + 512; omega
    | ⟨2, _⟩ =>
      show win0_9.index (pointOf (i 1).val h1) (2 : Fin 3) * 1024 ≤ (i 2).val ∧ (i 2).val < win0_9.index (pointOf (i 1).val h1) (2 : Fin 3) * 1024 + 1024
      rw [e2]; omega

/-- The kernel's run, read: both result arrays at the specification's arrays of the arguments, the arguments unchanged. -/
theorem run : θ_run defs (onTc (τ := τ) (main (F := Ideal))) ⟨m, fun _ => 0, ρ⟩ fun r => ∀ c : Dev nD,
      r.2.mem ((c : Thread nD τ).loc main_v9_0) = outOf m c
      ∧ r.2.mem ((c : Thread nD τ).loc main_v9_1) = hiddenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ)

end Cert.KernelIdeal.Arrays

end
-- ==== Proof.lean ====
/-
  The certificate of a gated-recurrent-cell kernel against its reference.

  Both programs compute, for each of 16384 batch rows, one step of a gated recurrent cell (reset, update and
  candidate gates from two affine maps of the input row and the state row) and then a linear layer with a
  hyperbolic tangent on the new state; the results are the output [16384, 512] and the new state [1, 16384, 1024].
  The kernel works on 32 blocks of 512 rows with the weights transposed beforehand and resident; the reference
  works on whole arrays. Over the extended reals the two are the same function of the arguments, entry by entry:
  narrowing a float changes nothing, a matrix product into a zero accumulator is the plain sum the host's
  contraction is, and the kernel's logistic operation is the quotient 1 / (1 + e^(−x)) the host spells out, at the
  infinities too. No algebraic rearrangement separates the two sides, so finiteness of the inputs is not used.

  Proof/Spec.lean states that function; Proof/RefSpec.lean shows the reference's two results are it;
  Proof/KernelPoint.lean reads the kernel body's two output blocks at one grid point; Proof/KernelArrays.lean
  assembles the 32 blocks into the two result arrays. The three frames come from the generated frame runs, and the
  idealization rewrote nothing, so its claim is trivial.
-/
import proofs.«113060_j3066606649895_2_alg».proof.Defs
import proofs.«113060_j3066606649895_2_alg».proof.Proof.Gen.Kernel
import proofs.«113060_j3066606649895_2_alg».proof.Proof.Gen.Kernel.Skeleton
import proofs.«113060_j3066606649895_2_alg».proof.Proof.Gen.Kernel.Launch
import proofs.«113060_j3066606649895_2_alg».proof.Proof.Gen.Kernel.Points
import proofs.«113060_j3066606649895_2_alg».proof.Proof.Gen.Kernel.Frame
import proofs.«113060_j3066606649895_2_alg».proof.Proof.Gen.KernelIdeal
import proofs.«113060_j3066606649895_2_alg».proof.Proof.Gen.KernelIdeal.Skeleton
import proofs.«113060_j3066606649895_2_alg».proof.Proof.Gen.KernelIdeal.Launch
import proofs.«113060_j3066606649895_2_alg».proof.Proof.Gen.KernelIdeal.Points
import proofs.«113060_j3066606649895_2_alg».proof.Proof.Gen.KernelIdeal.Frame
import proofs.«113060_j3066606649895_2_alg».proof.Proof.Gen.ReferenceIdeal
import proofs.«113060_j3066606649895_2_alg».proof.Proof.Gen.Pre_finite_inputs
import proofs.«113060_j3066606649895_2_alg».proof.Proof.Gen.KernelIdeal.Value
import proofs.«113060_j3066606649895_2_alg».proof.Proof.Gen.ReferenceIdeal.Run
import proofs.«113060_j3066606649895_2_alg».proof.Proof.Gen.ReferenceIdeal.Read
import proofs.«113060_j3066606649895_2_alg».proof.Proof.Spec
import proofs.«113060_j3066606649895_2_alg».proof.Proof.RefSpec
import proofs.«113060_j3066606649895_2_alg».proof.Proof.KernelPoint
import proofs.«113060_j3066606649895_2_alg».proof.Proof.KernelArrays
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the specification's two arrays of the arguments they agree on. -/
theorem algebraic : Cert.algebraic_KernelIdeal_ReferenceIdeal := by
  intro m ρ m' ρ' _ hagree
  refine ⟨fun c => Cert.KernelIdeal.Arrays.outOf m c, fun c => Cert.KernelIdeal.Arrays.hiddenOf m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v44_eq, Cert.ReferenceIdeal.RefSpec.out_eq, a0, a1, a2, a3, a4, a5, a6, a7]
    rfl
  · obtain ⟨a0, a1, a2, a3, a4, a5, a6, a7⟩ := hagree c
    rw [Cert.ReferenceIdeal.Read.val_main_v45_eq, Cert.ReferenceIdeal.RefSpec.hidden_eq, a0, a1, a2, a3, a4, a5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
